-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x21x256 : Shape := ⟨4, ![64, 128, 21, 256]⟩
abbrev S_ : Shape := ⟨0, ![]⟩

class Facts : Prop where
  bcast_S_S64x128x21x256 : S_.BroadcastsInDim S64x128x21x256 (![] : Fin 0 → Fin S64x128x21x256.rank)
  reducesTo_S64x128x21x256_S_d0_1_2_3 : S64x128x21x256.ReducesTo [0, 1, 2, 3] S_
  h_S_ : 0 < S_.numel

variable [Facts]

def fn {F : FTy → Type} [FloatOps F] (main_arg0 : FVec F S64x128x21x256 .f32) : IVec S_ 1 :=
  let main_v0 : FVec F S64x128x21x256 .f32 := Host.absf main_arg0
  let main_cst : FVec F S_ .f32 := constant S_ .f32 0x7F800000#32
  let main_v1 : FVec F S64x128x21x256 .f32 := broadcastInDim S64x128x21x256 ![] bcast_S_S64x128x21x256 main_cst
  let main_v2 : IVec S64x128x21x256 1 := cmpf .olt main_v0 main_v1
  let main_c : IVec S_ 1 := constantI S_ 1 1#1
  let main_v3 : IVec S_ 1 := (fun x v => Host.reduce IntOp.andi x v reducesTo_S64x128x21x256_S_d0_1_2_3 h_S_) main_v2 main_c
  main_v3
-- ==== Kernel.lean ====
abbrev S64x128x21x256 : Shape := ⟨4, ![64, 128, 21, 256]⟩
abbrev S1x128x21x256 : Shape := ⟨4, ![1, 128, 21, 256]⟩
abbrev S1x1x21x256 : Shape := ⟨4, ![1, 1, 21, 256]⟩
abbrev S1x127x21x256 : Shape := ⟨4, ![1, 127, 21, 256]⟩

abbrev nBuf : Space → Nat
  | .hbm => 2
  | .vmem => 4
  | .smem => 0
  | _ => 0

abbrev bufTy : (tb : Table) → Fin (tcTables nBuf tb) → BufTy
  | .hbm, ⟨0, _⟩ => ⟨S64x128x21x256, .f32⟩
  | .hbm, ⟨1, _⟩ => ⟨S64x128x21x256, .f32⟩
  | .local _ .vmem, ⟨0, _⟩ => ⟨S1x128x21x256, .f32⟩
  | .local _ .vmem, ⟨1, _⟩ => ⟨S1x128x21x256, .f32⟩
  | .local _ .vmem, ⟨2, _⟩ => ⟨S1x128x21x256, .f32⟩
  | .local _ .vmem, ⟨3, _⟩ => ⟨S1x128x21x256, .f32⟩
  | _, _ => ⟨S64x128x21x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x21x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x21x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x128x21x256_S1x128x21x256_0_0_0_0 : ∀ a, (![0, 0, 0, 0] : Fin 4 → Nat) a + S1x128x21x256.size a ≤ S1x128x21x256.size a
  h_S1x128x21x256 : 0 < S1x128x21x256.numel
  slices_S1x128x21x256_o0_1_0_0_S1x127x21x256 : S1x128x21x256.Slices ![0, 1, 0, 0] S1x127x21x256
  concatenates_S1x127x21x256_S1x1x21x256_S1x128x21x256_d1 : Shape.Concatenates [S1x127x21x256, S1x1x21x256] S1x128x21x256 1
  slices_S1x128x21x256_o0_0_0_0_S1x127x21x256 : S1x128x21x256.Slices ![0, 0, 0, 0] S1x127x21x256
  concatenates_S1x1x21x256_S1x127x21x256_S1x128x21x256_d1 : Shape.Concatenates [S1x1x21x256, S1x127x21x256] S1x128x21x256 1
  iota_S1x128x21x256_d3_w32 : S1x128x21x256.Iotas .tc 32 [3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x21x256.size a ≤ S64x128x21x256.size a
  hwx0_0 : ∀ i : grid0.Coords, EltTy.bits .f32 = 32 ∨ (Rect.block (s := S64x128x21x256) S1x128x21x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x21x256.size a ≤ S64x128x21x256.size a
  hwx0_1 : ∀ i : grid0.Coords, EltTy.bits .f32 = 32 ∨ (Rect.block (s := S64x128x21x256) S1x128x21x256.size (cc0_transform_1 i) (hinb0_1 i)).WholeWords (EltTy.packing .f32)

variable [Facts₀]

abbrev win0_0 : Pipeline.Window sig grid0 :=
  Pipeline.Window.ofSpec (Memref.whole main_arg0) S1x128x21x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x21x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x128x21x256 : Shape := ⟨4, ![64, 128, 21, 256]⟩
abbrev S64x128x21x86 : Shape := ⟨4, ![64, 128, 21, 86]⟩
abbrev S64x127x21x86 : Shape := ⟨4, ![64, 127, 21, 86]⟩
abbrev S_ : Shape := ⟨0, ![]⟩
abbrev S64x128x21x85 : Shape := ⟨4, ![64, 128, 21, 85]⟩
abbrev S64x127x21x85 : Shape := ⟨4, ![64, 127, 21, 85]⟩

abbrev nBuf : Space → Nat
  | .hbm => 13
  | .vmem => 0
  | .smem => 0
  | _ => 0

abbrev bufTy : (tb : Table) → Fin (tcTables nBuf tb) → BufTy
  | .hbm, ⟨0, _⟩ => ⟨S64x128x21x256, .f32⟩
  | .hbm, ⟨1, _⟩ => ⟨S64x128x21x86, .f32⟩
  | .hbm, ⟨2, _⟩ => ⟨S64x127x21x86, .f32⟩
  | .hbm, ⟨3, _⟩ => ⟨S_, .i32⟩
  | .hbm, ⟨4, _⟩ => ⟨S_, .f32⟩
  | .hbm, ⟨5, _⟩ => ⟨S64x128x21x86, .f32⟩
  | .hbm, ⟨6, _⟩ => ⟨S64x128x21x85, .f32⟩
  | .hbm, ⟨7, _⟩ => ⟨S64x128x21x85, .f32⟩
  | .hbm, ⟨8, _⟩ => ⟨S64x127x21x85, .f32⟩
  | .hbm, ⟨9, _⟩ => ⟨S_, .i32⟩
  | .hbm, ⟨10, _⟩ => ⟨S_, .f32⟩
  | .hbm, ⟨11, _⟩ => ⟨S64x128x21x85, .f32⟩
  | .hbm, ⟨12, _⟩ => ⟨S64x128x21x256, .f32⟩
  | _, _ => ⟨S64x128x21x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_call1_v0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  slices_S64x128x21x256_S64x128x21x86_0_0_0_0 : S64x128x21x256.Slices ![0, 0, 0, 0] S64x128x21x86
  slices_S64x128x21x86_S64x127x21x86_0_1_0_0 : S64x128x21x86.Slices ![0, 1, 0, 0] S64x127x21x86
  pads_S64x127x21x86_S64x128x21x86_000_010_000_000 : S64x127x21x86.Pads (![0, 0, 0, 0] : Fin 4 → Nat) ![0, 1, 0, 0] ![0, 0, 0, 0] S64x128x21x86
  h_S_ : 0 < S_.numel
  slices_S64x128x21x256_S64x128x21x85_0_0_0_86 : S64x128x21x256.Slices ![0, 0, 0, 86] S64x128x21x85
  slices_S64x128x21x256_S64x128x21x85_0_0_0_171 : S64x128x21x256.Slices ![0, 0, 0, 171] S64x128x21x85
  slices_S64x128x21x85_S64x127x21x85_0_0_0_0 : S64x128x21x85.Slices ![0, 0, 0, 0] S64x127x21x85
  pads_S64x127x21x85_S64x128x21x85_000_100_000_000 : S64x127x21x85.Pads (![0, 1, 0, 0] : Fin 4 → Nat) ![0, 0, 0, 0] ![0, 0, 0, 0] S64x128x21x85
  concatenates_S64x128x21x86_S64x128x21x85_S64x128x21x85_S64x128x21x256_d3 : Shape.Concatenates [S64x128x21x86, S64x128x21x85, S64x128x21x85] S64x128x21x256 3

variable [Facts₀]

class Facts : Prop extends Facts₀ where

variable [Facts]
-- ==== Proof.ShiftSpec.lean ====
/-
  A temporal shift by channel group, as one function of the array.

  The array has four axes [B, T, N, C] = [B, 128, 21, 256]: batch, time, node, channel. The 256 channels fall in three
  groups, [0, 86), [86, 171) and [171, 256). The result at (b, t, n, c) is
    * the entry one time step LATER, x (b, t + 1, n, c), in the first group  (padding `z` at the last step t = 127);
    * the entry itself, x (b, t, n, c), in the middle group;
    * the entry one time step EARLIER, x (b, t - 1, n, c), in the last group (padding `z` at the first step t = 0).
  Nothing is computed: every entry of the result is an entry of `x` or the padding value. The batch extent `B` is a
  parameter, so the same function describes one batch row ([1, 128, 21, 256], a block) and the whole array
  ([64, 128, 21, 256]); `shiftT_of_row` says that the shift of one batch row is that row of the shifted array.
-/
import Idealize.ShloMosaic.PureOps.Ideal
import Idealize.ShloMosaic.Lib.ValueIdx

namespace Cert.Shift

open Idealize.ShloMosaic Idealize.ShloMosaic.ValueIdx

/-- The shape [B, 128, 21, 256]. -/
abbrev Arr (B : Nat) : Shape := ⟨4, ![B, 128, 21, 256]⟩

/-- The shifted array at the coordinates (b, t, n, c), with padding value `z`. -/
def shiftAt {α : Type} {B : Nat} (z : α) (x : (Arr B).Idx → α) (b : Fin B) (t : Fin 128) (n : Fin 21) (c : Fin 256) : α :=
  if c.val < 86 then
    (if h : t.val + 1 < 128 then x (ix4 b ⟨t.val + 1, h⟩ n c) else z)
  else if c.val < 171 then x (ix4 b t n c)
  else (if h : 1 ≤ t.val then x (ix4 b ⟨t.val - 1, by omega⟩ n c) else z)

/-- The shifted array. -/
def shiftT {α : Type} {B : Nat} (z : α) (x : (Arr B).Idx → α) : (Arr B).Idx → α :=
  fun i => shiftAt z x (i 0) (i 1) (i 2) (i 3)

theorem shiftT_ix4 {α : Type} {B : Nat} (z : α) (x : (Arr B).Idx → α) (b : Fin B) (t : Fin 128) (n : Fin 21) (c : Fin 256) :
    shiftT z x (ix4 b t n c) = shiftAt z x b t n c := rfl

/-- The shift acts on each batch row by itself: if `x` is batch row `b` of `X`, the shift of `x` is batch row `b` of the
    shift of `X` (the time neighbours of an entry lie in the same batch row). -/
theorem shiftAt_of_row {α : Type} {B : Nat} (z : α) (X : (Arr B).Idx → α) (x : (Arr 1).Idx → α) (b : Fin B)
    (hx : ∀ (u : Fin 1) (t : Fin 128) (n : Fin 21) (c : Fin 256), x (ix4 u t n c) = X (ix4 b t n c))
    (u : Fin 1) (t : Fin 128) (n : Fin 21) (c : Fin 256) :
    shiftAt z x u t n c = shiftAt z X b t n c := by
  unfold shiftAt
  simp only [hx]

end Cert.Shift
-- ==== Proof.LibSelectLt.lean ====
/-
  A select on a signed comparison of two small words is the `if` on the numbers.

  A 32-bit word `BitVec.ofNat 32 a` with a < 2^31 has its top bit clear, so read as a signed integer it is the number
  `a` itself. For two such words the signed "less than" is therefore the order of the natural numbers, and a
  `Scalar.select` on its bit chooses its first operand exactly when a < k. This is how a mask built from a counter
  (an iota along an axis) and a threshold constant reads at an index.
-/
import Idealize.ShloMosaic.PureOps
import Idealize.ShloMosaic.Lib.Affine

namespace Idealize.ShloMosaic.SelectLt

open Idealize.ShloMosaic

/-- The signed comparison's bit: for a, k < 2^31 the words compare as the numbers do. -/
theorem cmpi_slt_ofNat_iff (a k : Nat) (ha : a < 2 ^ 31) (hk : k < 2 ^ 31) :
    IntOp.cmpi .slt (BitVec.ofNat 32 a) (BitVec.ofNat 32 k) = 1#1 ↔ a < k := by
  have e1 := BitVec.toInt_eq_toNat_cond (BitVec.ofNat 32 a)
  have e2 := BitVec.toInt_eq_toNat_cond (BitVec.ofNat 32 k)
  rw [BitVec.toNat_ofNat] at e1 e2
  rw [IntOp.cmpi_slt]
  omega

/-- A select on "word of a is signed-less than word of k" is the `if` on a < k, for a, k < 2^31. -/
theorem select_slt_ofNat {α : Type} (a k : Nat) (ha : a < 2 ^ 31) (hk : k < 2 ^ 31) (A B : α) :
    Scalar.select (IntOp.cmpi .slt (BitVec.ofNat 32 a) (BitVec.ofNat 32 k)) A B = if a < k then A else B := by
  unfold Scalar.select
  exact if_congr (cmpi_slt_ofNat_iff a k ha hk) rfl rfl

end Idealize.ShloMosaic.SelectLt
-- ==== Proof.KernelShift.lean ====
/-
  The kernel body's stored value is the temporal shift of the loaded block.

  The body loads one batch row `v` : [1, 128, 21, 256] and builds two time-shifted copies of it by cutting and joining
  along the time axis: rows 1..127 followed by one row of the constant (the row one step LATER at every step, the
  constant at the last step), and one row of the constant followed by rows 0..126 (the row one step EARLIER, the
  constant at the first step). A channel counter (an iota along the last axis) compared with 86 and with 171 then picks,
  entry by entry, the later copy in the first channel group, the row itself in the middle group and the earlier copy in
  the last group. Read at coordinates this is `Cert.Shift.shiftAt` with the constant as padding value. No float
  operation is involved, so the statement holds for every float instance.
-/
import proofs.«169554_j71923522339051_2_alg».proof.Proof.Gen.KernelIdeal.Skeleton
import proofs.«169554_j71923522339051_2_alg».proof.Proof.ShiftSpec
import Idealize.ShloMosaic.Lib.Pipeline.Value
import Idealize.ShloMosaic.Lib.ValueIdx
import proofs.«169554_j71923522339051_2_alg».proof.Proof.LibSelectLt

noncomputable section

namespace Cert.KernelIdeal.Shift

open Cert.KernelIdeal Cert.KernelIdeal.Gen Cert.Shift
open Idealize.ShloMosaic Idealize.ShloMosaic.ValueIdx

variable {F : FTy → Type} [FloatOps F]

/-- A select on "channel counter below `k`" is the `if` on the channel number. -/
theorem select_channel_lt {α : Type} (c : Fin 256) (k : Nat) (hk : k < 2 ^ 31) (A B : α) :
    Scalar.select (IntOp.cmpi .slt (BitVec.ofNat 32 c.val) (BitVec.ofNat 32 k)) A B = if c.val < k then A else B :=
  SelectLt.select_slt_ofNat c.val k (by have := c.isLt; omega) hk A B

/-- Rows 1..127 of the block followed by one row of `z`: at time step `t` the row one step later, `z` at the last step. -/
theorem later_apply {α : Type} (v : S1x128x21x256.Idx → α) (z : α)
    (h1 : S1x128x21x256.Slices ![0, 1, 0, 0] S1x127x21x256)
    (h2 : Shape.Concatenates [S1x127x21x256, S1x1x21x256] S1x128x21x256 1)
    (u : Fin 1) (t : Fin 128) (n : Fin 21) (c : Fin 256) :
    concatenate S1x128x21x256 1 [⟨S1x127x21x256, extractStridedSlice S1x127x21x256 ![0, 1, 0, 0] v h1⟩,
        ⟨S1x1x21x256, broadcast S1x1x21x256 z⟩] h2 (ix4 u t n c)
      = if h : t.val + 1 < 128 then v (ix4 u ⟨t.val + 1, h⟩ n c) else z := by
  by_cases h : t.val + 1 < 128
  · rw [dif_pos h]
    refine (concatenate_pair_apply_left (t := S1x128x21x256) (s₁ := S1x127x21x256) (s₂ := S1x1x21x256) (1 : Fin 4) _ _ h2 (ix4 u t n c) rfl
      (ix4 u (⟨t.val, by omega⟩ : Fin 127) n c) (fun b => ?_)).trans ?_
    · match b with
      | ⟨0, _⟩ => rfl
      | ⟨1, _⟩ => rfl
      | ⟨2, _⟩ => rfl
      | ⟨3, _⟩ => rfl
    · refine extractStridedSlice_apply _ v h1 _ (ix4 u ⟨t.val + 1, h⟩ n c) (fun a => ?_)
      match a with
      | ⟨0, _⟩ => show u.val = 0 + u.val; omega
      | ⟨1, _⟩ => show t.val + 1 = 1 + t.val; omega
      | ⟨2, _⟩ => show n.val = 0 + n.val; omega
      | ⟨3, _⟩ => show c.val = 0 + c.val; omega
  · rw [dif_neg h]
    have ht := t.isLt
    refine (concatenate_pair_apply_right (t := S1x128x21x256) (s₁ := S1x127x21x256) (s₂ := S1x1x21x256) (1 : Fin 4) _ _ h2 (ix4 u t n c) rfl rfl
      (ix4 u (0 : Fin 1) n c) (fun b hb => ?_) ?_).trans rfl
    · match b with
      | ⟨0, _⟩ => rfl
      | ⟨1, _⟩ => exact absurd rfl hb
      | ⟨2, _⟩ => rfl
      | ⟨3, _⟩ => rfl
    · show 0 + 127 = t.val; omega

/-- One row of `z` followed by rows 0..126 of the block: at time step `t` the row one step earlier, `z` at the first step. -/
theorem earlier_apply {α : Type} (v : S1x128x21x256.Idx → α) (z : α)
    (h1 : S1x128x21x256.Slices ![0, 0, 0, 0] S1x127x21x256)
    (h2 : Shape.Concatenates [S1x1x21x256, S1x127x21x256] S1x128x21x256 1)
    (u : Fin 1) (t : Fin 128) (n : Fin 21) (c : Fin 256) :
    concatenate S1x128x21x256 1 [⟨S1x1x21x256, broadcast S1x1x21x256 z⟩,
        ⟨S1x127x21x256, extractStridedSlice S1x127x21x256 ![0, 0, 0, 0] v h1⟩] h2 (ix4 u t n c)
      = if h : 1 ≤ t.val then v (ix4 u ⟨t.val - 1, by have := t.isLt; omega⟩ n c) else z := by
  have ht := t.isLt
  by_cases h : 1 ≤ t.val
  · rw [dif_pos h]
    refine (concatenate_pair_apply_right (t := S1x128x21x256) (s₁ := S1x1x21x256) (s₂ := S1x127x21x256) (1 : Fin 4) _ _ h2 (ix4 u t n c) rfl rfl
      (ix4 u (⟨t.val - 1, by omega⟩ : Fin 127) n c) (fun b hb => ?_) ?_).trans ?_
    · match b with
      | ⟨0, _⟩ => rfl
      | ⟨1, _⟩ => exact absurd rfl hb
      | ⟨2, _⟩ => rfl
      | ⟨3, _⟩ => rfl
    · show t.val - 1 + 1 = t.val; omega
    · refine extractStridedSlice_apply _ v h1 _ (ix4 u ⟨t.val - 1, by omega⟩ n c) (fun a => ?_)
      match a with
      | ⟨0, _⟩ => show u.val = 0 + u.val; omega
      | ⟨1, _⟩ => show t.val - 1 = 0 + (t.val - 1); omega
      | ⟨2, _⟩ => show n.val = 0 + n.val; omega
      | ⟨3, _⟩ => show c.val = 0 + c.val; omega
  · rw [dif_neg h]
    refine (concatenate_pair_apply_left (t := S1x128x21x256) (s₁ := S1x1x21x256) (s₂ := S1x127x21x256) (1 : Fin 4) _ _ h2 (ix4 u t n c) rfl
      (ix4 u (0 : Fin 1) n c) (fun b => ?_)).trans rfl
    match b with
    | ⟨0, _⟩ => rfl
    | ⟨1, _⟩ => show 0 = t.val; omega
    | ⟨2, _⟩ => rfl
    | ⟨3, _⟩ => rfl

/-- The stored value of the body is the shift of the loaded batch row, padded with the body's zero constant. -/
theorem pay_eq (v : Vec F S1x128x21x256 .f32) :
    k0_pay1 v = shiftT (Scalar.ofBits .f32 0x00000000#32 : F .f32) v := by
  funext j
  obtain ⟨u, t, n, c, rfl⟩ : ∃ (u : Fin 1) (t : Fin 128) (n : Fin 21) (c : Fin 256), j = ix4 u t n c :=
    ⟨j 0, j 1, j 2, j 3, eq_ix4 j⟩
  rw [shiftT_ix4]
  unfold k0_pay1 shiftAt
  dsimp only
  rw [select_apply, select_apply]
  show Scalar.select (IntOp.cmpi .slt (iota .tc S1x128x21x256 32 [3] _ (ix4 u t n c)) (BitVec.ofNat 32 86)) _
      (Scalar.select (IntOp.cmpi .slt (iota .tc S1x128x21x256 32 [3] _ (ix4 u t n c)) (BitVec.ofNat 32 171)) _ _) = _
  rw [iota_single_apply]
  show Scalar.select (IntOp.cmpi .slt (BitVec.ofNat 32 c.val) (BitVec.ofNat 32 86)) _
      (Scalar.select (IntOp.cmpi .slt (BitVec.ofNat 32 c.val) (BitVec.ofNat 32 171)) _ _) = _
  rw [select_channel_lt c 86 (by norm_num), select_channel_lt c 171 (by norm_num), later_apply, earlier_apply]

end Cert.KernelIdeal.Shift

end
-- ==== Proof.KernelArray.lean ====
/-
  From the blocks to the whole array: after the run the kernel's result array is the temporal shift of its argument.

  The grid has 64 points, one per batch row. At point `p` both windows hold batch row `p` of their arrays: an element
  (u, t, n, c) of the block sits in the array at (p, t, n, c). The body stores the shift of the loaded block, and the
  shift acts on each batch row by itself (`Cert.Shift.shiftAt_of_row`), so what point `p` writes back is batch row `p` of
  the shift of the whole argument. The 64 rows cover the array (the entry (b, t, n, c) lies in the block of point `b`), so
  the array ends holding the shifted argument everywhere.
-/
import proofs.«169554_j71923522339051_2_alg».proof.Proof.Gen.KernelIdeal.Value
import proofs.«169554_j71923522339051_2_alg».proof.Proof.KernelShift
import Idealize.ShloMosaic.Lib.Pipeline.Value

noncomputable section

namespace Cert.KernelIdeal.Shift

open Cert.KernelIdeal Cert.KernelIdeal.Gen Cert.KernelIdeal.Value Cert.Shift
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem offs_zero : (![0, 0, 0, 0] : Fin 4 → Nat) = fun _ => 0 := funext fun a => by fin_cases a <;> rfl

/-- The index maps, decided over the 64 grid points: both windows' block at point `p` is batch row `p`. -/
theorem rows_of_point : ∀ p : Fin cfg0.N,
    win0_0.index p (0 : Fin 4) = p.val ∧ win0_0.index p (1 : Fin 4) = 0 ∧ win0_0.index p (2 : Fin 4) = 0 ∧ win0_0.index p (3 : Fin 4) = 0
    ∧ win0_1.index p (0 : Fin 4) = p.val ∧ win0_1.index p (1 : Fin 4) = 0 ∧ win0_1.index p (2 : Fin 4) = 0 ∧ win0_1.index p (3 : Fin 4) = 0 :=
  (by decide +kernel : ∀ p : Fin grid0.N, _)

/-- The array's result after the run, as a function of the argument array. -/
abbrev result (x : S64x128x21x256.Idx → Elt F .f32) : S64x128x21x256.Idx → Elt F .f32 :=
  shiftT (Scalar.ofBits .f32 0x00000000#32 : F .f32) x

/-- What point `p` writes back is batch row `p` of the shifted argument. -/
theorem flushed_eq (c : Dev nD) (p : Fin cfg0.N) :
    (dats m 0 c).flushed 1 p = ((cfg0.win 1).blk p).view.read (Elt F) (result (V m c main_arg0)) := by
  rw [flushed1]
  unfold out0_1
  rw [View.canon_unit_zero offs_zero]
  simp only [View.ld_unit_zero (S := S1x128x21x256) offs_zero]
  rw [pay_eq]
  have hp : p.val < 64 := lt_of_lt_of_eq p.isLt N_0
  obtain ⟨e0, e1, e2, e3, f0, f1, f2, f3⟩ := rows_of_point p
  funext j
  obtain ⟨u, t, n, l, rfl⟩ : ∃ (u : Fin 1) (t : Fin 128) (n : Fin 21) (l : Fin 256), j = ix4 u t n l :=
    ⟨j 0, j 1, j 2, j 3, eq_ix4 (n0 := 1) (n1 := 128) (n2 := 21) (n3 := 256) j⟩
  have hout : ((cfg0.win 1).blk p).view.emb (ix4 u t n l) = ix4 (⟨p.val, hp⟩ : Fin 64) t n l := by
    funext a; apply Fin.ext
    have hu : u.val < 1 := u.isLt
    match a with
    | ⟨0, _⟩ => show win0_1.index p (0 : Fin 4) * 1 + 1 * u.val = p.val; omega
    | ⟨1, _⟩ => show win0_1.index p (1 : Fin 4) * 128 + 1 * t.val = t.val; omega
    | ⟨2, _⟩ => show win0_1.index p (2 : Fin 4) * 21 + 1 * n.val = n.val; omega
    | ⟨3, _⟩ => show win0_1.index p (3 : Fin 4) * 256 + 1 * l.val = l.val; omega
  show shiftT (Scalar.ofBits .f32 0x00000000#32 : F .f32) (iblk m c 0 p) (ix4 u t n l)
    = shiftT (Scalar.ofBits .f32 0x00000000#32 : F .f32) (V m c main_arg0) (((cfg0.win 1).blk p).view.emb (ix4 u t n l))
  rw [hout, shiftT_ix4, shiftT_ix4]
  refine shiftAt_of_row _ (V m c main_arg0) (iblk m c 0 p) ⟨p.val, hp⟩ (fun u' t' n' l' => ?_) u t n l
  show V m c main_arg0 (((cfg0.win 0).blk p).view.emb (ix4 u' t' n' l')) = V m c main_arg0 (ix4 (⟨p.val, hp⟩ : Fin 64) t' n' l')
  refine congrArg (V m c main_arg0) (funext fun a => Fin.ext ?_)
  have hu' : u'.val < 1 := u'.isLt
  match a with
  | ⟨0, _⟩ => show win0_0.index p (0 : Fin 4) * 1 + 1 * u'.val = p.val; omega
  | ⟨1, _⟩ => show win0_0.index p (1 : Fin 4) * 128 + 1 * t'.val = t'.val; omega
  | ⟨2, _⟩ => show win0_0.index p (2 : Fin 4) * 21 + 1 * n'.val = n'.val; omega
  | ⟨3, _⟩ => show win0_0.index p (3 : Fin 4) * 256 + 1 * l'.val = l'.val; omega

/-- An index of the array is in point `p`'s block iff each coordinate is in the block's range on its axis. -/
theorem mem_blk (p : Fin cfg0.N) (i : S64x128x21x256.Idx) :
    i ∈ ((cfg0.win 1).blk p).view.set ↔ ∀ a : Fin 4, win0_1.index p a * S1x128x21x256.size a ≤ (i a).val
      ∧ (i a).val < win0_1.index p a * S1x128x21x256.size a + S1x128x21x256.size a := by
  show i ∈ ((View.whole main_v0).slice (win0_1.rect p)).set ↔ _
  rw [View.set_slice_whole, Rect.mem_set_unit]
  exact Iff.rfl

/-- Every entry of the array lies in the block of the point of its batch row. -/
theorem cover (i : S64x128x21x256.Idx) :
    ∃ p : Fin cfg0.N, (cfg0.win 1).flush p = true ∧ i ∈ ((cfg0.win 1).blk p).view.set := by
  have h0 : (i 0).val < 64 := (i 0).isLt
  have h1 : (i 1).val < 128 := (i 1).isLt
  have h2 : (i 2).val < 21 := (i 2).isLt
  have h3 : (i 3).val < 256 := (i 3).isLt
  obtain ⟨p, hpv⟩ : ∃ p : Fin cfg0.N, p.val = (i 0).val := ⟨⟨(i 0).val, lt_of_lt_of_eq h0 N_0.symm⟩, rfl⟩
  obtain ⟨_, _, _, _, f0, f1, f2, f3⟩ := rows_of_point p
  refine ⟨p, flush0_1 p, ?_⟩
  rw [mem_blk]
  intro a
  match a with
  | ⟨0, _⟩ => show win0_1.index p (0 : Fin 4) * 1 ≤ (i 0).val ∧ (i 0).val < win0_1.index p (0 : Fin 4) * 1 + 1; omega
  | ⟨1, _⟩ => show win0_1.index p (1 : Fin 4) * 128 ≤ (i 1).val ∧ (i 1).val < win0_1.index p (1 : Fin 4) * 128 + 128; omega
  | ⟨2, _⟩ => show win0_1.index p (2 : Fin 4) * 21 ≤ (i 2).val ∧ (i 2).val < win0_1.index p (2 : Fin 4) * 21 + 21; omega
  | ⟨3, _⟩ => show win0_1.index p (3 : Fin 4) * 256 ≤ (i 3).val ∧ (i 3).val < win0_1.index p (3 : Fin 4) * 256 + 256; omega

/-- The result array after the run is the shifted argument. -/
theorem final (c : Dev nD) : (dats m 0 c).arrAt 1 cfg0.N = result (m ((c : Thread nD τ).loc main_arg0)) :=
  (dats m 0 c).arrAt_eq_of_cover 1 (result (V m c main_arg0)) (fun p _ => flushed_eq m c p) cover

/-- The run, read: the result array at the shifted argument, the argument unchanged. -/
theorem run : θ_run defs (onTc (τ := τ) (main (F := F))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Shift

end
-- ==== Proof.RefShift.lean ====
/-
  The reference's result is the temporal shift of its argument.

  The reference cuts the 256 channels into the three groups [0, 86), [86, 171), [171, 256). In the first group it drops
  time step 0 and pads one step behind (`pad` with one high step on the time axis): at step t the entry of step t + 1, the
  padding value at the last step. The middle group is kept. In the last group it drops time step 127 and pads one step in
  front: at step t the entry of step t - 1, the padding value at the first step. The three groups are joined again along
  the channel axis, so the entry at channel c comes from the group whose span holds c, at c less the channels before that
  group. The padding value is the integer zero converted to a float. Read at coordinates this is `Cert.Shift.shiftAt`.
  No float arithmetic is involved, so the statement holds for every float instance.
-/
import proofs.«169554_j71923522339051_2_alg».proof.Proof.Gen.ReferenceIdeal.Read
import proofs.«169554_j71923522339051_2_alg».proof.Proof.ShiftSpec
import Idealize.ShloMosaic.Lib.Pipeline.Value
import Idealize.ShloMosaic.Lib.ValueIdx
import Idealize.ShloMosaic.Lib.KernelVsHost

noncomputable section

namespace Cert.ReferenceIdeal.Shift

open Cert.ReferenceIdeal Cert.ReferenceIdeal.Gen Cert.ReferenceIdeal.Read Cert.Shift
open Idealize.ShloMosaic Idealize.ShloMosaic.ValueIdx

variable {F : FTy → Type} [FloatOps F]

/-- The first channel group after its shift: the entry one time step later, the padding value at the last step. -/
theorem group0_apply (x : (⟨S64x128x21x256, .f32⟩ : BufTy).Contents (Elt F)) (b : Fin 64) (t : Fin 128) (n : Fin 21) (c : Fin 86) :
    val_main_v2 (F := F) x (ix4 b t n c)
      = if h : t.val + 1 < 128 then x (ix4 b ⟨t.val + 1, h⟩ n ⟨c.val, by have := c.isLt; omega⟩)
        else (FloatOps.sitofp .f32 (0#32 : BitVec 32) : F .f32) := by
  have hc := c.isLt
  unfold val_main_v2
  by_cases h : t.val + 1 < 128
  · rw [dif_pos h]
    refine (pad_apply_of_inside (s := S64x127x21x86) (t := S64x128x21x86) _ _ _ _ _ _ _ (ix4 b t n c) (ix4 b (⟨t.val, by omega⟩ : Fin 127) n c) (fun a => ?_)).trans ?_
    · match a with
      | ⟨0, _⟩ => show b.val = 0 + b.val * (0 + 1); omega
      | ⟨1, _⟩ => show t.val = 0 + t.val * (0 + 1); omega
      | ⟨2, _⟩ => show n.val = 0 + n.val * (0 + 1); omega
      | ⟨3, _⟩ => show c.val = 0 + c.val * (0 + 1); omega
    · rw [val_main_v1_apply, val_main_v0_apply]
      refine congrArg x (funext fun a => Fin.ext ?_)
      match a with
      | ⟨0, _⟩ => rfl
      | ⟨1, _⟩ => show 1 + t.val = t.val + 1; omega
      | ⟨2, _⟩ => rfl
      | ⟨3, _⟩ => rfl
  · rw [dif_neg h]
    have ht := t.isLt
    refine (pad_apply_of_not_inside (s := S64x127x21x86) (t := S64x128x21x86) _ _ _ _ _ _ _ (ix4 b t n c) (1 : Fin 4) (fun hin => ?_)).trans rfl
    have h3 : (t.val - 0) / (0 + 1) < 127 := hin.2.2
    omega

/-- The last channel group after its shift: the entry one time step earlier, the padding value at the first step. -/
theorem group2_apply (x : (⟨S64x128x21x256, .f32⟩ : BufTy).Contents (Elt F)) (b : Fin 64) (t : Fin 128) (n : Fin 21) (c : Fin 85) :
    val_main_v6 (F := F) x (ix4 b t n c)
      = if h : 1 ≤ t.val then x (ix4 b ⟨t.val - 1, by have := t.isLt; omega⟩ n ⟨171 + c.val, by have := c.isLt; omega⟩)
        else (FloatOps.sitofp .f32 (0#32 : BitVec 32) : F .f32) := by
  have hc := c.isLt
  have ht := t.isLt
  unfold val_main_v6
  by_cases h : 1 ≤ t.val
  · rw [dif_pos h]
    refine (pad_apply_of_inside (s := S64x127x21x85) (t := S64x128x21x85) _ _ _ _ _ _ _ (ix4 b t n c) (ix4 b (⟨t.val - 1, by omega⟩ : Fin 127) n c) (fun a => ?_)).trans ?_
    · match a with
      | ⟨0, _⟩ => show b.val = 0 + b.val * (0 + 1); omega
      | ⟨1, _⟩ => show t.val = 1 + (t.val - 1) * (0 + 1); omega
      | ⟨2, _⟩ => show n.val = 0 + n.val * (0 + 1); omega
      | ⟨3, _⟩ => show c.val = 0 + c.val * (0 + 1); omega
    · rw [val_main_v5_apply, val_main_v4_apply]
      refine congrArg x (funext fun a => Fin.ext ?_)
      match a with
      | ⟨0, _⟩ => rfl
      | ⟨1, _⟩ => rfl
      | ⟨2, _⟩ => rfl
      | ⟨3, _⟩ => rfl
  · rw [dif_neg h]
    refine (pad_apply_of_not_inside (s := S64x127x21x85) (t := S64x128x21x85) _ _ _ _ _ _ _ (ix4 b t n c) (1 : Fin 4) (fun hin => ?_)).trans rfl
    have h1 : 1 ≤ t.val := hin.1
    omega

/-- The reference's result is the shift of its argument, padded with the converted integer zero. -/
theorem ref_eq (x : (⟨S64x128x21x256, .f32⟩ : BufTy).Contents (Elt F)) :
    val_main_v7 (F := F) x = shiftT (FloatOps.sitofp .f32 (0#32 : BitVec 32) : F .f32) x := by
  funext i
  obtain ⟨b, t, n, c, rfl⟩ : ∃ (b : Fin 64) (t : Fin 128) (n : Fin 21) (c : Fin 256), i = ix4 b t n c :=
    ⟨i 0, i 1, i 2, i 3, eq_ix4 i⟩
  have hc := c.isLt
  rw [shiftT_ix4]
  unfold val_main_v7 shiftAt
  by_cases h0 : c.val < 86
  · rw [if_pos h0]
    refine (concatenate_apply_piece (t := S64x128x21x256) (3 : Fin 4) _ _ (ix4 b t n c) 0 (by simp) S64x128x21x86 (val_main_v2 (F := F) x) rfl rfl
      0 rfl (ix4 b t n (⟨c.val, h0⟩ : Fin 86)) (fun a ha => ?_) ?_).trans (group0_apply x b t n ⟨c.val, h0⟩)
    · match a with
      | ⟨0, _⟩ => rfl
      | ⟨1, _⟩ => rfl
      | ⟨2, _⟩ => rfl
      | ⟨3, _⟩ => exact absurd rfl ha
    · show 0 + c.val = c.val; omega
  · rw [if_neg h0]
    by_cases h1 : c.val < 171
    · rw [if_pos h1]
      refine (concatenate_apply_piece (t := S64x128x21x256) (3 : Fin 4) _ _ (ix4 b t n c) 1 (by simp) S64x128x21x85 (val_main_v3 (F := F) x) rfl rfl
        86 rfl (ix4 b t n (⟨c.val - 86, by omega⟩ : Fin 85)) (fun a ha => ?_) ?_).trans ?_
      · match a with
        | ⟨0, _⟩ => rfl
        | ⟨1, _⟩ => rfl
        | ⟨2, _⟩ => rfl
        | ⟨3, _⟩ => exact absurd rfl ha
      · show 86 + (c.val - 86) = c.val; omega
      · rw [val_main_v3_apply]
        refine congrArg x (funext fun a => Fin.ext ?_)
        match a with
        | ⟨0, _⟩ => rfl
        | ⟨1, _⟩ => rfl
        | ⟨2, _⟩ => rfl
        | ⟨3, _⟩ => show 86 + (c.val - 86) = c.val; omega
    · rw [if_neg h1]
      refine (concatenate_apply_piece (t := S64x128x21x256) (3 : Fin 4) _ _ (ix4 b t n c) 2 (by simp) S64x128x21x85 (val_main_v6 (F := F) x) rfl rfl
        171 rfl (ix4 b t n (⟨c.val - 171, by omega⟩ : Fin 85)) (fun a ha => ?_) ?_).trans
        ((group2_apply x b t n ⟨c.val - 171, by omega⟩).trans ?_)
      · match a with
        | ⟨0, _⟩ => rfl
        | ⟨1, _⟩ => rfl
        | ⟨2, _⟩ => rfl
        | ⟨3, _⟩ => exact absurd rfl ha
      · show 171 + (c.val - 171) = c.val; omega
      · have e : (⟨171 + (c.val - 171), by omega⟩ : Fin 256) = c := Fin.ext (by show 171 + (c.val - 171) = c.val; omega)
        simp only [e]

end Cert.ReferenceIdeal.Shift

end
-- ==== Proof.lean ====
/-
  The kernel and its reference compute the same temporal shift.

  The argument is an array x : [64, 128, 21, 256] (batch, time, node, channel). Both programs return the array that
  holds, at (b, t, n, c), the entry x (b, t + 1, n, c) for the channels c < 86 (zero at the last time step), the entry
  x (b, t, n, c) for 86 ≤ c < 171, and the entry x (b, t - 1, n, c) for 171 ≤ c (zero at the first time step):
  `Cert.Shift.shiftT`. The kernel does it one batch row per grid point, with two cut-and-joined copies of the row and a
  select on a channel counter (Proof/KernelShift.lean, Proof/KernelArray.lean); the reference cuts the channel groups
  apart, pads each along the time axis and joins them again (Proof/RefShift.lean). Both hold for every float instance:
  no entry is computed, each is copied or is the padding value. The two padding values — the kernel's float constant
  zero and the reference's converted integer zero — are both the extended real 0, which is the only fact about the
  extended reals used; the inputs' finiteness is not needed.
-/
import proofs.«169554_j71923522339051_2_alg».proof.Defs
import proofs.«169554_j71923522339051_2_alg».proof.Proof.Gen.Kernel
import proofs.«169554_j71923522339051_2_alg».proof.Proof.Gen.Kernel.Frame
import proofs.«169554_j71923522339051_2_alg».proof.Proof.Gen.KernelIdeal
import proofs.«169554_j71923522339051_2_alg».proof.Proof.Gen.KernelIdeal.Frame
import proofs.«169554_j71923522339051_2_alg».proof.Proof.Gen.KernelIdeal.Value
import proofs.«169554_j71923522339051_2_alg».proof.Proof.Gen.ReferenceIdeal
import proofs.«169554_j71923522339051_2_alg».proof.Proof.Gen.ReferenceIdeal.Run
import proofs.«169554_j71923522339051_2_alg».proof.Proof.Gen.ReferenceIdeal.Read
import proofs.«169554_j71923522339051_2_alg».proof.Proof.Gen.Pre_finite_inputs
import proofs.«169554_j71923522339051_2_alg».proof.Proof.KernelArray
import proofs.«169554_j71923522339051_2_alg».proof.Proof.RefShift
import Idealize.ShloMosaic.PureOps.Ideal.Laws
import Idealize.ShloMosaic.Lib.KernelVsHost
import Idealize.ShloMosaic.Adequacy
import Idealize.ShloMosaic.Init

noncomputable section

namespace Cert.Proof

open Idealize.ShloMosaic Idealize.ShloMosaic.TcCoe Idealize.SL.Sem

/-- On the extended reals the two padding values are one: the float constant zero and the integer zero converted. -/
theorem pad_values_eq :
    (FloatOps.sitofp .f32 (0#32 : BitVec 32) : Ideal .f32) = (Scalar.ofBits .f32 0x00000000#32 : Ideal .f32) := by
  show ((((0#32 : BitVec 32).toInt : ℤ) : ℝ) : EReal) = Ideal.ofBits .f32 0x00000000#32
  rw [Ideal.ofBits_zero_f32]
  simp

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: there is no rewrite to justify. -/
theorem preserves : Cert.preserves_Kernel_KernelIdeal := trivial

/-- Both runs end with the shifted argument in the result array: the kernel's by its blocks, the reference's by its
    operations read at an index; the arguments agree, and the padding values are equal. -/
theorem algebraic : Cert.algebraic_KernelIdeal_ReferenceIdeal := by
  intro m ρ m' ρ' _ hagree
  refine ⟨fun c => Cert.KernelIdeal.Shift.result (F := Ideal) (m ((c.tc : Thread Cert.KernelIdeal.nD Cert.KernelIdeal.τ).loc Cert.KernelIdeal.main_arg0)),
    Cert.KernelIdeal.Shift.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Shift.ref_eq, hagree c, pad_values_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
